-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x16x64x2048 : Shape := ⟨4, ![4, 16, 64, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x16x64x2048 : S_.BroadcastsInDim S4x16x64x2048 (![] : Fin 0 → Fin S4x16x64x2048.rank)
  reducesTo_S4x16x64x2048_S_d0_1_2_3 : S4x16x64x2048.ReducesTo [0, 1, 2, 3] S_

variable [Facts]

def fn {F : FTy → Type} [FloatOps F] (main_arg0 : FVec F S4x16x2048x64 .f32) (main_arg1 : FVec F S4x16x64x2048 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x64x2048 .f32 := Host.absf main_arg1
  let main_cst_0 : FVec F S_ .f32 := constant S_ .f32 0x7F800000#32
  let main_v5 : FVec F S4x16x64x2048 .f32 := broadcastInDim S4x16x64x2048 ![] bcast_S_S4x16x64x2048 main_cst_0
  let main_v6 : IVec S4x16x64x2048 1 := cmpf .olt main_v4 main_v5
  let main_c_1 : IVec S_ 1 := constantI S_ 1 1#1
  let main_v7 : IVec S_ 1 := (fun x v => Host.reduce IntOp.andi x v reducesTo_S4x16x64x2048_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x16x64x2048 : Shape := ⟨4, ![4, 16, 64, 2048]⟩
abbrev S64x2048x64 : Shape := ⟨3, ![64, 2048, 64]⟩
abbrev S64x64x2048 : Shape := ⟨3, ![64, 64, 2048]⟩
abbrev S1x1024x64 : Shape := ⟨3, ![1, 1024, 64]⟩
abbrev S1x64x2048 : Shape := ⟨3, ![1, 64, 2048]⟩
abbrev S1x2048x64 : Shape := ⟨3, ![1, 2048, 64]⟩
abbrev S1024x64 : Shape := ⟨2, ![1024, 64]⟩
abbrev S64x2048 : Shape := ⟨2, ![64, 2048]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x64x2048, .f32⟩
  | .hbm, ⟨2, _⟩ => ⟨S4x16x2048x64, .f32⟩
  | .hbm, ⟨3, _⟩ => ⟨S64x2048x64, .f32⟩
  | .hbm, ⟨4, _⟩ => ⟨S64x64x2048, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x64x2048, .f32⟩
  | .local _ .vmem, ⟨3, _⟩ => ⟨S1x64x2048, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  shapeCasts_S4x16x64x2048_S64x64x2048 : S4x16x64x2048.ShapeCasts S64x64x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  shapeCasts_S64x2048x64_S4x16x2048x64 : S64x2048x64.ShapeCasts S4x16x2048x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S64x64x2048.size a
  hwx0_1 : ∀ i : grid0.Coords, EltTy.bits .f32 = 32 ∨ (Rect.block (s := S64x64x2048) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x64x2048 : Shape := ⟨4, ![4, 16, 64, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x64x2048, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048, .f32⟩
  | .hbm, ⟨6, _⟩ => ⟨S_, .f32⟩
  | .hbm, ⟨7, _⟩ => ⟨S4x16x2048, .f32⟩
  | .hbm, ⟨8, _⟩ => ⟨S4x16x2048, .f32⟩
  | .hbm, ⟨9, _⟩ => ⟨S4x16x2048x1, .f32⟩
  | .hbm, ⟨10, _⟩ => ⟨S4x16x2048x2048, .f32⟩
  | .hbm, ⟨11, _⟩ => ⟨S4x16x2048x2048, .f32⟩
  | .hbm, ⟨12, _⟩ => ⟨S4x16x2048x2048, .f32⟩
  | .hbm, ⟨13, _⟩ => ⟨S_, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x64x2048_S4x16x2048x2048_3_2_2_3_01_01_wf : DotDims.WF S4x16x2048x64 S4x16x64x2048 S4x16x2048x2048 [3] [2] [2] [3] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x64x2048_S4x16x2048x2048_3_2_2_3_01_01 : DotDims S4x16x2048x64 S4x16x64x2048 S4x16x2048x2048 where
  lhsContracting := [3]
  rhsContracting := [2]
  lhsNonContracting := [2]
  rhsNonContracting := [3]
  lhsBatch := [0, 1]
  rhsBatch := [0, 1]
  wf := dot_S4x16x2048x64_S4x16x64x2048_S4x16x2048x2048_3_2_2_3_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.Attn.lean ====
/-
  Softmax attention of one query row, on the extended reals.

  For a query row q (K entries), keys k (K × T) and values v (T × D):
    score t  = Σ_c q c · k c t
    rowMax   = the maximum of the scores, folded from −∞
    expo t   = exp (score t − rowMax)
    weight t = expo t / Σ_u expo u
    row d    = Σ_t weight t · v t d
  and `heads` is that row function applied at every (batch, head, row) of rank-4 arrays.
  Nothing here mentions a program: both the kernel's block and the reference's arrays are read against these.
-/
import Idealize.ShloMosaic.PureOps.Ideal
import Idealize.ShloMosaic.Lib.ValueIdx
import Mathlib.Data.Finset.Fold

noncomputable section

namespace Cert.Attn

open Idealize.ShloMosaic Idealize.ShloMosaic.ValueIdx

/-- The scores of one query row against every key. -/
def score {K T : ℕ} (q : Fin K → EReal) (k : Fin K → Fin T → EReal) (t : Fin T) : EReal := ∑ c : Fin K, q c * k c t

/-- The largest score of a row, folded from the f32 pattern of −∞. -/
def rowMax {T : ℕ} (s : Fin T → EReal) : EReal :=
  (Finset.univ : Finset (Fin T)).fold max (Ideal.ofBits .f32 0xFF800000#32) s

/-- The fold starts from its initial value, so that value is below the result: joining it on once more changes nothing. -/
theorem max_init_rowMax {T : ℕ} (s : Fin T → EReal) :
    max (Ideal.ofBits .f32 0xFF800000#32) (rowMax s) = rowMax s :=
  max_eq_right ((Finset.le_fold_max _).mpr (Or.inl le_rfl))

/-- The shifted exponential of a score. -/
def expo {T : ℕ} (s : Fin T → EReal) (t : Fin T) : EReal := Ideal.exp (s t - rowMax s)

/-- The softmax weight of key `t`. -/
def weight {T : ℕ} (s : Fin T → EReal) (t : Fin T) : EReal := Ideal.div (expo s t) (∑ u : Fin T, expo s u)

/-- One row of the attention output: the weighted sum of the value rows. -/
def row {K T D : ℕ} (q : Fin K → EReal) (k : Fin K → Fin T → EReal) (v : Fin T → Fin D → EReal) (d : Fin D) : EReal :=
  ∑ t : Fin T, weight (score q k) t * v t d

/-- Attention of every (batch, head): entry (b, h, r, d) is row r of head (b, h). -/
def heads {B H S K D : ℕ} (q : (⟨4, ![B, H, S, K]⟩ : Shape).Idx → EReal) (k : (⟨4, ![B, H, K, S]⟩ : Shape).Idx → EReal)
    (v : (⟨4, ![B, H, S, D]⟩ : Shape).Idx → EReal) : (⟨4, ![B, H, S, D]⟩ : Shape).Idx → EReal := fun i =>
  row (fun c => q (ix4 (i 0) (i 1) (i 2) c)) (fun c t => k (ix4 (i 0) (i 1) c t)) (fun t e => v (ix4 (i 0) (i 1) t e)) (i 3)

theorem heads_apply {B H S K D : ℕ} (q : (⟨4, ![B, H, S, K]⟩ : Shape).Idx → EReal) (k : (⟨4, ![B, H, K, S]⟩ : Shape).Idx → EReal)
    (v : (⟨4, ![B, H, S, D]⟩ : Shape).Idx → EReal) (b : Fin B) (h : Fin H) (r : Fin S) (d : Fin D) :
    heads q k v (ix4 b h r d)
      = row (fun c => q (ix4 b h r c)) (fun c t => k (ix4 b h c t)) (fun t e => v (ix4 b h t e)) d := rfl

/-- The same with the batch and head axes merged into one: entry (n, r, d) is row r of head n. -/
def heads3 {N S K D : ℕ} (q : (⟨3, ![N, S, K]⟩ : Shape).Idx → EReal) (k : (⟨3, ![N, K, S]⟩ : Shape).Idx → EReal)
    (v : (⟨3, ![N, S, D]⟩ : Shape).Idx → EReal) : (⟨3, ![N, S, D]⟩ : Shape).Idx → EReal := fun i =>
  row (fun c => q (ix3 (i 0) (i 1) c)) (fun c t => k (ix3 (i 0) c t)) (fun t e => v (ix3 (i 0) t e)) (i 2)

theorem heads3_apply {N S K D : ℕ} (q : (⟨3, ![N, S, K]⟩ : Shape).Idx → EReal) (k : (⟨3, ![N, K, S]⟩ : Shape).Idx → EReal)
    (v : (⟨3, ![N, S, D]⟩ : Shape).Idx → EReal) (n : Fin N) (r : Fin S) (d : Fin D) :
    heads3 q k v (ix3 n r d)
      = row (fun c => q (ix3 n r c)) (fun c t => k (ix3 n c t)) (fun t e => v (ix3 n t e)) d := rfl

end Cert.Attn

end
-- ==== Proof.Body.lean ====
/-
  The kernel body's stored value, read at an index.

  At a grid point the body loads a block of 1024 query rows (all 64 features), the head's whole key matrix
  (64 × 2048) and whole value matrix (2048 × 64), and stores, at row p and feature d of the block,
    Σ_t (exp (s p t − max_u s p u) / Σ_u exp (s p u − max_u s p u)) · v t d,   s p t = Σ_c q p c · k c t:
  softmax attention of query row p, which depends on no other row of the block.
-/
import proofs.«106618_j13314398618003_2_alg».proof.Proof.Gen.KernelIdeal.Skeleton
import proofs.«106618_j13314398618003_2_alg».proof.Proof.LibDot
import proofs.«106618_j13314398618003_2_alg».proof.Proof.LibColumn
import proofs.«106618_j13314398618003_2_alg».proof.Proof.Attn
import Idealize.ShloMosaic.Lib.ValueLayout

noncomputable section

namespace Cert.KernelIdeal.Body

open Cert.KernelIdeal Cert.KernelIdeal.Gen Idealize.ShloMosaic Idealize.ShloMosaic.ValueIdx
open Cert.LibColumn Idealize.ShloMosaic.LibDot

/-! ## The three stages of the body as whole-block values -/

/-- The score block: the query block times the key matrix (the change of format is the identity). -/
def scores (x0 : Vec Ideal S1x1024x64 .f32) (x1 : Vec Ideal S1x64x2048 .f32) : FVec Ideal S1024x2048 .f32 :=
  matmul dot_S1024x64_S64x2048_S1024x2048_1_0_0_1_n_n none
    (truncf .bf16 (shapeCast S1024x64 x0 shapeCasts_S1x1024x64_S1024x64) bitsLt_bf16_f32)
    (truncf .bf16 (shapeCast S64x2048 x1 shapeCasts_S1x64x2048_S64x2048) bitsLt_bf16_f32)
    (constant S1024x2048 .f32 0x00000000#32)

/-- Each score less its row's maximum, exponentiated. -/
def expos (s : FVec Ideal S1024x2048 .f32) : FVec Ideal S1024x2048 .f32 :=
  exp (subf s (broadcastTo S1024x2048 (shapeCast S1024x1
    (multiReduction .maximumf [1] S1024 s 0xFF800000#32 reduces_S1024x2048_S1024 (.inl rfl) rfl)
    shapeCasts_S1024_S1024x1) broadcasts_S1024x1_S1024x2048))

/-- Each entry divided by its row's sum. -/
def probs (e : FVec Ideal S1024x2048 .f32) : FVec Ideal S1024x2048 .f32 :=
  divf e (broadcastTo S1024x2048 (shapeCast S1024x1
    (multiReduction .add [1] S1024 e 0x00000000#32 reduces_S1024x2048_S1024 (.inl rfl) rfl)
    shapeCasts_S1024_S1024x1) broadcasts_S1024x1_S1024x2048)

/-- The body's stored value is the weights times the value matrix, the weights being those three stages composed. -/
theorem pay_eq (x0 : Vec Ideal S1x1024x64 .f32) (x1 : Vec Ideal S1x64x2048 .f32) (x2 : Vec Ideal S1x2048x64 .f32) :
    k0_pay1 x0 x1 x2 = shapeCast S1x1024x64
      (matmul dot_S1024x2048_S2048x64_S1024x64_1_0_0_1_n_n none
        (truncf .bf16 (probs (expos (scores x0 x1))) bitsLt_bf16_f32)
        (truncf .bf16 (shapeCast S2048x64 x2 shapeCasts_S1x2048x64_S2048x64) bitsLt_bf16_f32)
        (constant S1024x64 .f32 0x00000000#32)) shapeCasts_S1024x64_S1x1024x64 := rfl

/-! ## Each stage at an index -/

/-- The score of row p against key t is the sum over the 64 features. -/
theorem scores_apply (x0 : Vec Ideal S1x1024x64 .f32) (x1 : Vec Ideal S1x64x2048 .f32) (p : Fin 1024) (t : Fin 2048) :
    scores x0 x1 (ix2 p t)
      = Attn.score (fun c : Fin 64 => x0 (ix3 (0 : Fin 1) p c)) (fun (c : Fin 64) (u : Fin 2048) => x1 (ix3 (0 : Fin 1) c u)) t := by
  unfold scores Attn.score
  refine (matmul_zero_plain _ rfl rfl rfl rfl rfl rfl none _ _ p t).trans ?_
  refine Finset.sum_congr rfl fun c _ => ?_
  show shapeCast S1024x64 x0 shapeCasts_S1x1024x64_S1024x64 (ix2 p c) * shapeCast S64x2048 x1 shapeCasts_S1x64x2048_S64x2048 (ix2 c t) = _
  rw [shapeCast_1ab_ab_apply, shapeCast_1ab_ab_apply]

/-- A row's maximum, kept as a column and broadcast back over the row, read at (p, t). -/
theorem rowMax_apply (s : FVec Ideal S1024x2048 .f32) (p : Fin 1024) (t : Fin 2048) :
    broadcastTo S1024x2048 (shapeCast S1024x1
      (multiReduction .maximumf [1] S1024 s 0xFF800000#32 reduces_S1024x2048_S1024 (.inl rfl) rfl)
      shapeCasts_S1024_S1024x1) broadcasts_S1024x1_S1024x2048 (ix2 p t)
      = Attn.rowMax (fun u : Fin 2048 => s (ix2 p u)) := by
  refine (broadcastTo_a1_ab_apply _ broadcasts_S1024x1_S1024x2048 p t).trans ?_
  refine (shapeCast_a_a1_apply _ shapeCasts_S1024_S1024x1 p 0).trans ?_
  refine (Ideal.multiReduction_maximumf_single s _ reduces_S1024x2048_S1024 _ _ (ix1 p)).trans ?_
  unfold Attn.rowMax
  exact congrArg (fun f : Fin 2048 → EReal => Finset.fold max (Ideal.ofBits .f32 0xFF800000#32) f Finset.univ)
    (funext fun u => congrArg s (lift_row reduces_S1024x2048_S1024 p u))

/-- A row's sum, kept as a column and broadcast back over the row, read at (p, t). -/
theorem rowSum_apply (e : FVec Ideal S1024x2048 .f32) (p : Fin 1024) (t : Fin 2048) :
    broadcastTo S1024x2048 (shapeCast S1024x1
      (multiReduction .add [1] S1024 e 0x00000000#32 reduces_S1024x2048_S1024 (.inl rfl) rfl)
      shapeCasts_S1024_S1024x1) broadcasts_S1024x1_S1024x2048 (ix2 p t)
      = ∑ u : Fin 2048, e (ix2 p u) := by
  refine (broadcastTo_a1_ab_apply _ broadcasts_S1024x1_S1024x2048 p t).trans ?_
  refine (shapeCast_a_a1_apply _ shapeCasts_S1024_S1024x1 p 0).trans ?_
  refine (Ideal.multiReduction_add_single e _ reduces_S1024x2048_S1024 _ _ (ix1 p)).trans ?_
  exact Finset.sum_congr rfl fun u _ => congrArg e (lift_row reduces_S1024x2048_S1024 p u)

theorem expos_apply (s : FVec Ideal S1024x2048 .f32) (p : Fin 1024) (t : Fin 2048) :
    expos s (ix2 p t) = Attn.expo (fun u : Fin 2048 => s (ix2 p u)) t := by
  unfold expos Attn.expo
  show Ideal.exp (s (ix2 p t) - _) = _
  rw [rowMax_apply]

theorem probs_apply (e : FVec Ideal S1024x2048 .f32) (p : Fin 1024) (t : Fin 2048) :
    probs e (ix2 p t) = Ideal.div (e (ix2 p t)) (∑ u : Fin 2048, e (ix2 p u)) := by
  unfold probs
  show Ideal.div (e (ix2 p t)) _ = _
  rw [rowSum_apply]

/-! ## The stored value at an index -/

/-- Entry (p, d) of the stored block is attention row p of the loaded blocks, at feature d. -/
theorem pay_apply (x0 : Vec Ideal S1x1024x64 .f32) (x1 : Vec Ideal S1x64x2048 .f32) (x2 : Vec Ideal S1x2048x64 .f32)
    (z : Fin 1) (p : Fin 1024) (d : Fin 64) :
    k0_pay1 x0 x1 x2 (ix3 z p d)
      = Attn.row (fun c : Fin 64 => x0 (ix3 (0 : Fin 1) p c)) (fun (c : Fin 64) (u : Fin 2048) => x1 (ix3 (0 : Fin 1) c u))
          (fun (u : Fin 2048) (e : Fin 64) => x2 (ix3 (0 : Fin 1) u e)) d := by
  rw [pay_eq]
  refine (shapeCast_ab_1ab_apply _ shapeCasts_S1024x64_S1x1024x64 z p d).trans ?_
  refine (matmul_zero_plain _ rfl rfl rfl rfl rfl rfl none _ _ p d).trans ?_
  unfold Attn.row Attn.weight
  have hs : (fun u : Fin 2048 => scores x0 x1 (ix2 p u))
      = Attn.score (fun c : Fin 64 => x0 (ix3 (0 : Fin 1) p c)) (fun (c : Fin 64) (u : Fin 2048) => x1 (ix3 (0 : Fin 1) c u)) :=
    funext fun u => scores_apply x0 x1 p u
  refine Finset.sum_congr rfl fun t _ => ?_
  show probs (expos (scores x0 x1)) (ix2 p t) * shapeCast S2048x64 x2 shapeCasts_S1x2048x64_S2048x64 (ix2 t d) = _
  rw [probs_apply, shapeCast_1ab_ab_apply]
  simp only [expos_apply]
  rw [hs]

end Cert.KernelIdeal.Body

end
-- ==== Proof.LibMergeLead.lean ====
/-
  General lemmas: a reshape that merges the two leading axes of a rank-4 array, [a, b, c, d] ↔ [m, c, d] with
  m = a · b, read at an index. Both arrays are laid out row-major, so entry (i, j, r, s) of the rank-4 array and
  entry (i · b + j, r, s) of the rank-3 array sit at the same position.
-/
import Idealize.ShloMosaic.Lib.Pipeline.Value
import Idealize.ShloMosaic.Lib.ValueIdx

noncomputable section

namespace Cert.LibMergeLead

open Idealize.ShloMosaic Idealize.ShloMosaic.ValueIdx

variable {α : Type}

/-- `[a, b, c, d]` cast to `[m, c, d]` reads, at `(n, r, s)` with `n = i · b + j`, the operand at `(i, j, r, s)`. -/
theorem shapeCast_abcd_mcd_apply {a b c d m : ℕ} (x : (⟨4, ![a, b, c, d]⟩ : Shape).Idx → α)
    (h : (⟨4, ![a, b, c, d]⟩ : Shape).ShapeCasts ⟨3, ![m, c, d]⟩) (i : Fin a) (j : Fin b) (n : Fin m)
    (hn : n.val = i.val * b + j.val) (r : Fin c) (s : Fin d) :
    shapeCast ⟨3, ![m, c, d]⟩ x h (ix3 n r s) = x (ix4 i j r s) :=
  shapeCast_apply x h _ _ (by
    rw [Shape.rowMajor_val_four, Shape.rowMajor_val_three]
    show ((i.val * b + j.val) * c + r.val) * d + s.val = (n.val * c + r.val) * d + s.val
    rw [hn])

/-- `[m, c, d]` cast to `[a, b, c, d]` reads, at `(i, j, r, s)`, the operand at `(n, r, s)` with `n = i · b + j`. -/
theorem shapeCast_mcd_abcd_apply {a b c d m : ℕ} (y : (⟨3, ![m, c, d]⟩ : Shape).Idx → α)
    (h : (⟨3, ![m, c, d]⟩ : Shape).ShapeCasts ⟨4, ![a, b, c, d]⟩) (i : Fin a) (j : Fin b) (n : Fin m)
    (hn : n.val = i.val * b + j.val) (r : Fin c) (s : Fin d) :
    shapeCast ⟨4, ![a, b, c, d]⟩ y h (ix4 i j r s) = y (ix3 n r s) :=
  shapeCast_apply y h _ _ (by
    rw [Shape.rowMajor_val_four, Shape.rowMajor_val_three]
    show (n.val * c + r.val) * d + s.val = ((i.val * b + j.val) * c + r.val) * d + s.val
    rw [hn])

end Cert.LibMergeLead

end
-- ==== Proof.KernelValue.lean ====
/-
  What the kernel's run leaves in its result array.

  The three arguments are first reshaped to [64, 2048, 64], [64, 64, 2048], [64, 2048, 64] (batch and head merged).
  Grid point (n, j) loads rows 1024·j … 1024·j + 1023 of query head n and all of key head n and value head n, and
  writes back rows 1024·j … 1024·j + 1023 of result head n: attention rows of head n, each of which depends only on
  its own query row. The 128 blocks tile the [64, 2048, 64] result, so it ends holding attention of every merged
  head; the last operation reshapes it to [4, 16, 2048, 64], which is attention of every (batch, head).
-/
import proofs.«106618_j13314398618003_2_alg».proof.Proof.Gen.KernelIdeal.Frame
import proofs.«106618_j13314398618003_2_alg».proof.Proof.Body
import proofs.«106618_j13314398618003_2_alg».proof.Proof.LibMergeLead
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

theorem V_v0 (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl

theorem V_v1 (c : Dev nD) : (V m c main_v1 : S64x64x2048.Idx → EReal)
    = shapeCast S64x64x2048 (m ((c : Thread nD τ).loc main_arg1)) shapeCasts_S4x16x64x2048_S64x64x2048 := by
  show StableHlo.after hostOps0 (fun b => m (c, b)) (Proc.devRef .tc main_v1) = _
  after_results
  rfl

theorem V_v2 (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl

/-! ## One block -/

/-- A block whose query rows are rows 1024·j … of head n of `A0`, and whose key and value blocks are head n of `A1`
    and `A2`, stores at (·, p, d) the attention entry (n, 1024·j + p, d) of the three arrays. -/
theorem block_eq (A0 : S64x2048x64.Idx → EReal) (A1 : S64x64x2048.Idx → EReal) (A2 : S64x2048x64.Idx → EReal)
    (x0 : Vec Ideal S1x1024x64 .f32) (x1 : Vec Ideal S1x64x2048 .f32) (x2 : Vec Ideal S1x2048x64 .f32) (n j : ℕ)
    (h0 : ∀ (y : S1x1024x64.Idx) (k : S64x2048x64.Idx), (k 0).val = n → (k 1).val = j * 1024 + (y 1).val →
      (k 2).val = (y 2).val → x0 y = A0 k)
    (h1 : ∀ (y : S1x64x2048.Idx) (k : S64x64x2048.Idx), (k 0).val = n → (k 1).val = (y 1).val →
      (k 2).val = (y 2).val → x1 y = A1 k)
    (h2 : ∀ (y : S1x2048x64.Idx) (k : S64x2048x64.Idx), (k 0).val = n → (k 1).val = (y 1).val →
      (k 2).val = (y 2).val → x2 y = A2 k)
    (y : S1x1024x64.Idx) (i : S64x2048x64.Idx) (hi0 : (i 0).val = n) (hi1 : (i 1).val = j * 1024 + (y 1).val)
    (hi2 : (i 2).val = (y 2).val) :
    k0_pay1 x0 x1 x2 y = Attn.heads3 A0 A1 A2 i := by
  obtain ⟨z, p, d, rfl⟩ : ∃ (z : Fin 1) (p : Fin 1024) (d : Fin 64), y = ix3 z p d := ⟨y 0, y 1, y 2, eq_ix3 y⟩
  obtain ⟨a, r, d', rfl⟩ : ∃ (a : Fin 64) (r : Fin 2048) (d' : Fin 64), i = ix3 a r d' := ⟨i 0, i 1, i 2, eq_ix3 i⟩
  obtain rfl : d' = d := Fin.ext hi2
  rw [Body.pay_apply, Attn.heads3_apply]
  have e0 : (fun c : Fin 64 => x0 (ix3 (0 : Fin 1) p c)) = fun c : Fin 64 => A0 (ix3 a r c) :=
    funext fun c => h0 (ix3 (0 : Fin 1) p c) (ix3 a r c) hi0 hi1 rfl
  have e1 : (fun (c : Fin 64) (u : Fin 2048) => x1 (ix3 (0 : Fin 1) c u)) = fun (c : Fin 64) (u : Fin 2048) => A1 (ix3 a c u) :=
    funext fun c => funext fun u => h1 (ix3 (0 : Fin 1) c u) (ix3 a c u) hi0 rfl rfl
  have e2 : (fun (u : Fin 2048) (e : Fin 64) => x2 (ix3 (0 : Fin 1) u e)) = fun (u : Fin 2048) (e : Fin 64) => A2 (ix3 a u e) :=
    funext fun u => funext fun e => h2 (ix3 (0 : Fin 1) u e) (ix3 a u e) hi0 rfl rfl
  rw [e0, e1, e2]

/-! ## From blocks to the array -/

theorem hz : (![0, 0, 0] : Fin 3 → Nat) = fun _ => 0 := funext fun a => by fin_cases a <;> rfl

/-- The index maps, decided over the 128 grid points: the query block moves with the result block, the key and value
    blocks are the whole head the result block lies in. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 :=
  (by decide +kernel : ∀ t : Fin grid0.N, _)

/-- Every (head, row half) is some grid point's result block. -/
theorem idx_onto : ∀ (q0 : Fin 64) (q1 : Fin 2), ∃ t : Fin cfg0.N, win0_3.index t = ![q0.val, q1.val, 0] :=
  (by decide +kernel : ∀ (q0 : Fin 64) (q1 : Fin 2), ∃ t : Fin grid0.N, win0_3.index t = ![q0.val, q1.val, 0])

/-- What point `t` writes back is block `t` of the attention of the merged heads. -/
theorem flushed_eq (c : Dev nD) (t : Fin cfg0.N) :
    (dats m 0 c).flushed 3 t = ((cfg0.win 3).blk t).view.read (Elt Ideal)
      (Attn.heads3 (V m c main_v0 : S64x2048x64.Idx → EReal) (V m c main_v1 : S64x64x2048.Idx → EReal) (V m c main_v2 : S64x2048x64.Idx → EReal)) := by
  show (cfg0.win 3).cut (grid0.coords t) ((dats m 0 c).after 3 t) = _
  rw [after0_3]
  unfold out0_3
  rw [View.canon_unit_zero hz]
  simp only [View.ld_unit_zero (S := S1x1024x64) hz, View.ld_unit_zero (S := S1x64x2048) hz, View.ld_unit_zero (S := S1x2048x64) hz]
  obtain ⟨f00, f01, f02, f10, f11, f12, f20, f21, f22, f32⟩ := idx_facts t
  funext y
  show k0_pay1 (iblk m c 0 t) (iblk m c 1 t) (iblk m c 2 t) y
    = Attn.heads3 (V m c main_v0 : S64x2048x64.Idx → EReal) (V m c main_v1 : S64x64x2048.Idx → EReal) (V m c main_v2 : S64x2048x64.Idx → EReal) (((cfg0.win 3).blk t).view.emb y)
  refine block_eq _ _ _ _ _ _ (win0_3.index t (0 : Fin 3)) (win0_3.index t (1 : Fin 3)) ?_ ?_ ?_ y _ ?_ ?_ ?_
  · intro y0 k e0 e1 e2
    show V m c main_v0 (((cfg0.win 0).blk t).view.emb y0) = V m c main_v0 k
    refine congrArg _ (funext fun a => Fin.ext ?_)
    match a with
    | ⟨0, _⟩ => show win0_0.index t (0 : Fin 3) * 1 + 1 * (y0 0).val = (k 0).val; have : (y0 0).val < 1 := (y0 0).isLt; omega
    | ⟨1, _⟩ => show win0_0.index t (1 : Fin 3) * 1024 + 1 * (y0 1).val = (k 1).val; omega
    | ⟨2, _⟩ => show win0_0.index t (2 : Fin 3) * 64 + 1 * (y0 2).val = (k 2).val; omega
  · intro y0 k e0 e1 e2
    show V m c main_v1 (((cfg0.win 1).blk t).view.emb y0) = V m c main_v1 k
    refine congrArg _ (funext fun a => Fin.ext ?_)
    match a with
    | ⟨0, _⟩ => show win0_1.index t (0 : Fin 3) * 1 + 1 * (y0 0).val = (k 0).val; have : (y0 0).val < 1 := (y0 0).isLt; omega
    | ⟨1, _⟩ => show win0_1.index t (1 : Fin 3) * 64 + 1 * (y0 1).val = (k 1).val; omega
    | ⟨2, _⟩ => show win0_1.index t (2 : Fin 3) * 2048 + 1 * (y0 2).val = (k 2).val; omega
  · intro y0 k e0 e1 e2
    show V m c main_v2 (((cfg0.win 2).blk t).view.emb y0) = V m c main_v2 k
    refine congrArg _ (funext fun a => Fin.ext ?_)
    match a with
    | ⟨0, _⟩ => show win0_2.index t (0 : Fin 3) * 1 + 1 * (y0 0).val = (k 0).val; have : (y0 0).val < 1 := (y0 0).isLt; omega
    | ⟨1, _⟩ => show win0_2.index t (1 : Fin 3) * 2048 + 1 * (y0 1).val = (k 1).val; omega
    | ⟨2, _⟩ => show win0_2.index t (2 : Fin 3) * 64 + 1 * (y0 2).val = (k 2).val; omega
  · show win0_3.index t (0 : Fin 3) * 1 + 1 * (y 0).val = win0_3.index t (0 : Fin 3); have : (y 0).val < 1 := (y 0).isLt; omega
  · show win0_3.index t (1 : Fin 3) * 1024 + 1 * (y 1).val = win0_3.index t (1 : Fin 3) * 1024 + (y 1).val; omega
  · show win0_3.index t (2 : Fin 3) * 64 + 1 * (y 2).val = (y 2).val; omega

/-- An index of the result is in point `t`'s block iff each coordinate is in the block's range on its axis. -/
theorem mem_blk (t : Fin cfg0.N) (i : S64x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v3).slice (win0_3.rect t)).set ↔ _
  rw [View.set_slice_whole, Rect.mem_set_unit]
  exact Iff.rfl

/-- Every index of the result lies in the block of the point for its head and its half of the rows. -/
theorem cover (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The [64, 2048, 64] result after the region: attention of every merged head of the reshaped arguments. -/
theorem final3 (c : Dev nD) : (dats m 0 c).arrAt 3 cfg0.N
    = Attn.heads3 (V m c main_v0 : S64x2048x64.Idx → EReal) (V m c main_v1 : S64x64x2048.Idx → EReal) (V m c main_v2 : S64x2048x64.Idx → EReal) :=
  (dats m 0 c).arrAt_eq_of_cover 3 _ (fun t _ => flushed_eq m c t) cover

/-! ## The reshapes around the region -/

/-- Attention of the merged heads of the reshaped arguments, reshaped back, is attention of every (batch, head):
    head 16·b + h of the merged arrays is head (b, h) of the arguments. -/
theorem merged_eq (q : S4x16x2048x64.Idx → EReal) (k : S4x16x64x2048.Idx → EReal) (v : S4x16x2048x64.Idx → EReal) :
    shapeCast S4x16x2048x64 (Attn.heads3
      (shapeCast S64x2048x64 q shapeCasts_S4x16x2048x64_S64x2048x64)
      (shapeCast S64x64x2048 k shapeCasts_S4x16x64x2048_S64x64x2048)
      (shapeCast S64x2048x64 v shapeCasts_S4x16x2048x64_S64x2048x64)) shapeCasts_S64x2048x64_S4x16x2048x64
    = Attn.heads q k v := by
  funext i
  obtain ⟨b, h, r, d, rfl⟩ : ∃ (b : Fin 4) (h : Fin 16) (r : Fin 2048) (d : Fin 64), i = ix4 b h r d :=
    ⟨i 0, i 1, i 2, i 3, eq_ix4 i⟩
  have hb : b.val < 4 := b.isLt
  have hh : h.val < 16 := h.isLt
  let n : Fin 64 := ⟨b.val * 16 + h.val, by omega⟩
  rw [LibMergeLead.shapeCast_mcd_abcd_apply _ shapeCasts_S64x2048x64_S4x16x2048x64 b h n rfl r d,
    Attn.heads3_apply, Attn.heads_apply]
  have e0 : (fun c : Fin 64 => shapeCast S64x2048x64 q shapeCasts_S4x16x2048x64_S64x2048x64 (ix3 n r c))
      = fun c : Fin 64 => q (ix4 b h r c) :=
    funext fun c => LibMergeLead.shapeCast_abcd_mcd_apply q _ b h n rfl r c
  have e1 : (fun (c : Fin 64) (u : Fin 2048) => shapeCast S64x64x2048 k shapeCasts_S4x16x64x2048_S64x64x2048 (ix3 n c u))
      = fun (c : Fin 64) (u : Fin 2048) => k (ix4 b h c u) :=
    funext fun c => funext fun u => LibMergeLead.shapeCast_abcd_mcd_apply k _ b h n rfl c u
  have e2 : (fun (u : Fin 2048) (e : Fin 64) => shapeCast S64x2048x64 v shapeCasts_S4x16x2048x64_S64x2048x64 (ix3 n u e))
      = fun (u : Fin 2048) (e : Fin 64) => v (ix4 b h u e) :=
    funext fun u => funext fun e => LibMergeLead.shapeCast_abcd_mcd_apply v _ b h n rfl u e
  rw [e0, e1, e2]

/-- The result buffer after the last reshape. -/
theorem result (c : Dev nD) :
    Pipeline.afterTail₀ cfgs (dats m) 0 (V0 m) [hostOps1] c main_v4
      = Attn.heads (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = Attn.heads3 (V m c main_v0 : S64x2048x64.Idx → EReal) (V m c main_v1 : S64x64x2048.Idx → EReal) (V m c main_v2 : S64x2048x64.Idx → EReal) :=
    (Pipeline.withArrays_arr spec0 launch0.win.arr_inj c _ _ 3).trans (final3 m c)
  rw [hw, V_v0, V_v1, V_v2]
  exact merged_eq _ _ _

/-- The run, read: the result array ends holding attention of every (batch, head) of the arguments, and the
    arguments end as they were. -/
theorem run : θ_run defs (onTc (τ := τ) (main (F := Ideal))) ⟨m, fun _ => 0, ρ⟩ fun r => ∀ c : Dev nD,
      r.2.mem ((c.tc : Thread nD τ).loc main_v4)
        = Attn.heads (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefRead.lean ====
/-
  The reference's result, read at an index.

  The reference computes, for every (batch, head): the scores q·k, each row's maximum (folded from −∞, then once
  more joined with −∞, which changes nothing), the shifted exponentials, each row's sum from 0, the quotients, and
  the product with the values. Entry (b, h, r, d) of its result is attention row r of head (b, h) at feature d.
-/
import proofs.«106618_j13314398618003_2_alg».proof.Proof.Gen.ReferenceIdeal.Read
import proofs.«106618_j13314398618003_2_alg».proof.Proof.Attn

noncomputable section

namespace Cert.ReferenceIdeal.RefValue

open Cert.ReferenceIdeal Cert.ReferenceIdeal.Gen Cert.ReferenceIdeal.Read
open Idealize.ShloMosaic Idealize.ShloMosaic.ValueIdx

variable (x0 : (⟨S4x16x2048x64, .f32⟩ : BufTy).Contents (Elt Ideal)) (x1 : (⟨S4x16x64x2048, .f32⟩ : BufTy).Contents (Elt Ideal))
  (x2 : (⟨S4x16x2048x64, .f32⟩ : BufTy).Contents (Elt Ideal))

/-- The scores of query row r of head (b, h). -/
abbrev sc (b : Fin 4) (h : Fin 16) (r : Fin 2048) : Fin 2048 → EReal :=
  Attn.score (fun c : Fin 64 => x0 (ix4 b h r c)) (fun (c : Fin 64) (u : Fin 2048) => x1 (ix4 b h c u))

theorem reduces_d3 : S4x16x2048x2048.Reduces [3] S4x16x2048 := by decide

/-- Putting key coordinate u back on the reduced last axis of (b, h, r) gives (b, h, r, u). -/
theorem lift_d3 (b : Fin 4) (h : Fin 16) (r : Fin 2048) (u : Fin 2048) :
    reduces_d3.lift (ix3 b h r) u = ix4 b h r u :=
  funext fun a => Fin.ext (by
    match a with
    | ⟨0, _⟩ => rfl
    | ⟨1, _⟩ => rfl
    | ⟨2, _⟩ => rfl
    | ⟨3, _⟩ => rfl)

/-- The first product at (b, h, r, u) is the score of row r against key u. -/
theorem v0_apply (b : Fin 4) (h : Fin 16) (r : Fin 2048) (u : Fin 2048) :
    val_main_v0 (F := Ideal) x0 x1 (ix4 b h r u) = sc x0 x1 b h r u := by
  rw [val_main_v0_apply]
  unfold sc Attn.score
  refine Finset.sum_congr rfl fun c _ => ?_
  have el : lidx_main_v0 (ix4 b h r u) c = ix4 b h r c := funext fun a => Fin.ext (by
    match a with
    | ⟨0, _⟩ => rfl
    | ⟨1, _⟩ => rfl
    | ⟨2, _⟩ => rfl
    | ⟨3, _⟩ => rfl)
  have er : ridx_main_v0 (ix4 b h r u) c = ix4 b h c u := funext fun a => Fin.ext (by
    match a with
    | ⟨0, _⟩ => rfl
    | ⟨1, _⟩ => rfl
    | ⟨2, _⟩ => rfl
    | ⟨3, _⟩ => rfl)
  rw [el, er]

/-- The row maximum at (b, h, r): the fold of max from −∞ over the row's scores. -/
theorem v1_apply (b : Fin 4) (h : Fin 16) (r : Fin 2048) :
    val_main_v1 (F := Ideal) x0 x1 (ix3 b h r) = Attn.rowMax (sc x0 x1 b h r) := by
  unfold val_main_v1
  rw [Host.reduce_eq_fold_single FloatOps.maximumf _ _ reducesTo_S4x16x2048x2048_S4x16x2048_d3 reduces_d3 h_S_]
  unfold Attn.rowMax
  exact congrArg (fun f : Fin 2048 → EReal => Finset.fold max (Ideal.ofBits .f32 0xFF800000#32) f Finset.univ)
    (funext fun u => (congrArg (val_main_v0 (F := Ideal) x0 x1) (lift_d3 b h r u)).trans (v0_apply x0 x1 b h r u))

/-- Joining the maximum with −∞ once more changes nothing. -/
theorem v3_apply (b : Fin 4) (h : Fin 16) (r : Fin 2048) :
    val_main_v3 (F := Ideal) x0 x1 (ix3 b h r) = Attn.rowMax (sc x0 x1 b h r) := by
  rw [val_main_v3_apply, val_main_v2_apply, val_main_cst_0_apply, v1_apply]
  exact Attn.max_init_rowMax _

/-- The maximum broadcast back over the row. -/
theorem v5_apply (b : Fin 4) (h : Fin 16) (r : Fin 2048) (u : Fin 2048) :
    val_main_v5 (F := Ideal) x0 x1 (ix4 b h r u) = Attn.rowMax (sc x0 x1 b h r) := by
  rw [val_main_v5_apply, val_main_v4_apply]
  have e : idx_main_v4 (idx_main_v5 (ix4 b h r u)) = ix3 b h r := funext fun a => Fin.ext (by
    match a with
    | ⟨0, _⟩ => rfl
    | ⟨1, _⟩ => rfl
    | ⟨2, _⟩ => rfl)
  rw [e, v3_apply]

/-- The shifted exponential at (b, h, r, u). -/
theorem v7_apply (b : Fin 4) (h : Fin 16) (r : Fin 2048) (u : Fin 2048) :
    val_main_v7 (F := Ideal) x0 x1 (ix4 b h r u) = Attn.expo (sc x0 x1 b h r) u := by
  rw [val_main_v7_apply, val_main_v6_apply, v0_apply, v5_apply]
  rfl

/-- The row's sum of exponentials, from the zero initial value. -/
theorem v8_apply (b : Fin 4) (h : Fin 16) (r : Fin 2048) :
    val_main_v8 (F := Ideal) x0 x1 (ix3 b h r) = ∑ u : Fin 2048, Attn.expo (sc x0 x1 b h r) u := by
  rw [val_main_v8_apply, val_main_cst_1_apply]
  show Ideal.ofBits .f32 0x00000000#32 + _ = _
  rw [Ideal.ofBits_zero_f32, zero_add]
  refine Finset.sum_congr rfl fun u _ => ?_
  have e : idx_main_v8 (ix3 b h r) u = ix4 b h r u := funext fun a => Fin.ext (by
    match a with
    | ⟨0, _⟩ => rfl
    | ⟨1, _⟩ => rfl
    | ⟨2, _⟩ => rfl
    | ⟨3, _⟩ => rfl)
  rw [e, v7_apply]

/-- The softmax weight at (b, h, r, u). -/
theorem v11_apply (b : Fin 4) (h : Fin 16) (r : Fin 2048) (u : Fin 2048) :
    val_main_v11 (F := Ideal) x0 x1 (ix4 b h r u) = Attn.weight (sc x0 x1 b h r) u := by
  rw [val_main_v11_apply, v7_apply, val_main_v10_apply, val_main_v9_apply]
  have e : idx_main_v9 (idx_main_v10 (ix4 b h r u)) = ix3 b h r := funext fun a => Fin.ext (by
    match a with
    | ⟨0, _⟩ => rfl
    | ⟨1, _⟩ => rfl
    | ⟨2, _⟩ => rfl)
  rw [e, v8_apply]
  rfl

/-- The reference's result is attention of every head. -/
theorem result_eq : val_main_v12 (F := Ideal) x0 x1 x2 = Attn.heads x0 x1 x2 := by
  funext i
  obtain ⟨b, h, r, d, rfl⟩ : ∃ (b : Fin 4) (h : Fin 16) (r : Fin 2048) (d : Fin 64), i = ix4 b h r d :=
    ⟨i 0, i 1, i 2, i 3, eq_ix4 i⟩
  rw [val_main_v12_apply, Attn.heads_apply]
  unfold Attn.row
  refine Finset.sum_congr rfl fun u _ => ?_
  have el : lidx_main_v12 (ix4 b h r d) u = ix4 b h r u := funext fun a => Fin.ext (by
    match a with
    | ⟨0, _⟩ => rfl
    | ⟨1, _⟩ => rfl
    | ⟨2, _⟩ => rfl
    | ⟨3, _⟩ => rfl)
  have er : ridx_main_v12 (ix4 b h r d) u = ix4 b h u d := funext fun a => Fin.ext (by
    match a with
    | ⟨0, _⟩ => rfl
    | ⟨1, _⟩ => rfl
    | ⟨2, _⟩ => rfl
    | ⟨3, _⟩ => rfl)
  rw [el, er, v11_apply]

end Cert.ReferenceIdeal.RefValue

end
-- ==== Proof.lean ====
/-
  Softmax attention, tiled over query rows, against the plain jnp formula.

  The kernel reshapes q, k, v to 64 merged heads and, per grid point, computes for 1024 query rows of one head the
  full-row softmax of q·k over all 2048 keys and multiplies by that head's values; the reference computes the same
  per (batch, head) on whole arrays. On the extended reals both results are, at (b, h, r, d),
    Σ_t (exp (s t − max_u s u) / Σ_u exp (s u − max_u s u)) · v (b, h, t, d),   s t = Σ_c q (b, h, r, c) · k (b, h, c, t),
  with the maximum folded from −∞. The two texts differ only in layout (merged heads and row blocks against rank-4
  arrays), in the kernel's products accumulating into a zero block (0 + x = x), in a second join of the row maximum
  with −∞ on the reference's side (−∞ is the fold's own starting value), and in the reference's row sums starting from
  an explicit 0. None of this needs the inputs to be finite, so the precondition is not opened.
  The ideal pass rewrote nothing, so the idealization claim is trivial.
-/
import proofs.«106618_j13314398618003_2_alg».proof.Defs
import proofs.«106618_j13314398618003_2_alg».proof.Proof.Gen.Kernel
import proofs.«106618_j13314398618003_2_alg».proof.Proof.Gen.Kernel.Frame
import proofs.«106618_j13314398618003_2_alg».proof.Proof.Gen.KernelIdeal
import proofs.«106618_j13314398618003_2_alg».proof.Proof.Gen.KernelIdeal.Frame
import proofs.«106618_j13314398618003_2_alg».proof.Proof.Gen.ReferenceIdeal
import proofs.«106618_j13314398618003_2_alg».proof.Proof.Gen.Pre_finite_inputs
import proofs.«106618_j13314398618003_2_alg».proof.Proof.Gen.ReferenceIdeal.Read
import proofs.«106618_j13314398618003_2_alg».proof.Proof.KernelValue
import proofs.«106618_j13314398618003_2_alg».proof.Proof.RefRead

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The same of the idealized kernel. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- Both programs end with attention of every (batch, head) of the arguments in their result arrays. -/
theorem algebraic : Cert.algebraic_KernelIdeal_ReferenceIdeal := by
  intro m ρ m' ρ' _ hagree
  refine ⟨fun c => Cert.Attn.heads (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
